-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x1024 : Shape := ⟨2, ![4096, 1024]⟩
abbrev S1x1024 : Shape := ⟨2, ![1, 1024]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16384x4096 .f32) (main_arg1 : FVec F S4096x1024 .f32) (main_arg2 : FVec F S1x1024 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S16384x4096 : Shape := ⟨2, ![16384, 4096]⟩
abbrev S4096x1024 : Shape := ⟨2, ![4096, 1024]⟩
abbrev S1x1024 : Shape := ⟨2, ![1, 1024]⟩
abbrev S_ : Shape := ⟨0, ![]⟩
abbrev S16384x1024 : Shape := ⟨2, ![16384, 1024]⟩
abbrev S512x4096 : Shape := ⟨2, ![512, 4096]⟩
abbrev S512x1024 : Shape := ⟨2, ![512, 1024]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1x1024 : S_.BroadcastsInDim S1x1024 (![] : Fin 0 → Fin S1x1024.rank)
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x1024 : Shape := ⟨2, ![4096, 1024]⟩
abbrev S1x1024 : Shape := ⟨2, ![1, 1024]⟩
abbrev S_ : Shape := ⟨0, ![]⟩
abbrev S16384x1024 : Shape := ⟨2, ![16384, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)
  dot_S16384x4096_S4096x1024_S16384x1024_1_0_0_1_n_n_wf : DotDims.WF S16384x4096 S4096x1024 S16384x1024 [1] [0] [0] [1] [] []

variable [Facts₀]

def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Dense.lean ====
/-
  A dense layer whose parameters are binarized by their signs, as one function on the extended reals.
  For activations X of 16384 rows and 4096 columns, weights W of 4096 rows and 1024 columns and a bias row b of
  1024 entries, entry (r, q) of the result is

      ( Σ_k  X(r, k) · sign W(k, q) )  +  sign b(q),

  the dot product of row r of X with the signs of column q of W, shifted by the sign of the q-th bias entry.
  Sums, products and the sign are those of the extended reals; nothing here depends on the inputs being finite.
-/
import Idealize.ShloMosaic.PureOps.Ideal
import Idealize.ShloMosaic.Lib.ValueIdx

noncomputable section

namespace Cert.SignDense

open Idealize.ShloMosaic Idealize.ShloMosaic.ValueIdx

/-- Entry (r, q): row r of the activations against the signs of column q of the weights, plus the sign of bias entry q. -/
def entry (X : (⟨2, ![16384, 4096]⟩ : Shape).Idx → EReal) (W : (⟨2, ![4096, 1024]⟩ : Shape).Idx → EReal)
    (b : (⟨2, ![1, 1024]⟩ : Shape).Idx → EReal) (r : Fin 16384) (q : Fin 1024) : EReal :=
  (∑ k : Fin 4096, X (ix2 r k) * Ideal.sign (W (ix2 k q))) + Ideal.sign (b (ix2 (0 : Fin 1) q))

/-- The whole result array, index by index. -/
def dense (X : (⟨2, ![16384, 4096]⟩ : Shape).Idx → EReal) (W : (⟨2, ![4096, 1024]⟩ : Shape).Idx → EReal)
    (b : (⟨2, ![1, 1024]⟩ : Shape).Idx → EReal) : (⟨2, ![16384, 1024]⟩ : Shape).Idx → EReal :=
  fun i => entry X W b (i 0) (i 1)

/-- The result at an index whose coordinates are r and q is entry (r, q). -/
theorem dense_at (X : (⟨2, ![16384, 4096]⟩ : Shape).Idx → EReal) (W : (⟨2, ![4096, 1024]⟩ : Shape).Idx → EReal)
    (b : (⟨2, ![1, 1024]⟩ : Shape).Idx → EReal) (i : (⟨2, ![16384, 1024]⟩ : Shape).Idx) (r : Fin 16384) (q : Fin 1024)
    (h0 : (i 0).val = r.val) (h1 : (i 1).val = q.val) : dense X W b i = entry X W b r q := by
  have e : i = ix2 r q := funext fun a => Fin.ext (by match a with | ⟨0, _⟩ => exact h0 | ⟨1, _⟩ => exact h1)
  rw [e]
  rfl

end Cert.SignDense

end
-- ==== Proof.BodyDense.lean ====
/-
  One grid step of the kernel, read entry by entry. The step holds a block of 512 rows of the activations, the whole
  binarized weight matrix and the binarized bias row. It rounds the activations to a narrower format (no change on the
  extended reals), contracts them with the weights into a zero accumulator, multiplies by the constant one (x · 1 = x)
  and adds the bias row to every row. So entry (p, q) of what the step stores is

      ( Σ_k  x(p, k) · w(k, q) )  +  b(0, q).
-/
import proofs.«110408_j86234353369428_2_alg».proof.Proof.Gen.KernelIdeal.Skeleton
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- In the contraction of a [512, 4096] block with a [4096, 1024] matrix, the left factor's row is the output's row. -/
theorem lhs_row (i : S512x1024.Idx) (s : dot_S512x4096_S4096x1024_S512x1024_1_0_0_1_n_n.contr.Idx) :
    (dot_S512x4096_S4096x1024_S512x1024_1_0_0_1_n_n.lhsIdx i s 0).val = (i 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl

/-- The right factor's column is the output's column. -/
theorem rhs_col (i : S512x1024.Idx) (s : dot_S512x4096_S4096x1024_S512x1024_1_0_0_1_n_n.contr.Idx) :
    (dot_S512x4096_S4096x1024_S512x1024_1_0_0_1_n_n.rhsIdx i s 1).val = (i 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The matrix product into a zero accumulator, at entry (p, q): the sum over the 4096 shared coordinates of the
    products of row p of the left factor with column q of the right one. -/
theorem matmul_at (l : FVec Ideal S512x4096 .bf16) (w : FVec Ideal S4096x1024 .bf16) (p : Fin 512) (q : Fin 1024) :
    matmul dot_S512x4096_S4096x1024_S512x1024_1_0_0_1_n_n none l w (constant S512x1024 .f32 0x00000000#32) (ix2 p q)
      = ∑ k : Fin 4096, l (ix2 p k) * w (ix2 k q) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q) ((contrEquiv1 dot_S512x4096_S4096x1024_S512x1024_1_0_0_1_n_n 4096 rfl rfl).symm k) = ix2 p k :=
    funext fun a => Fin.ext (by
      match a with
      | ⟨0, _⟩ => exact lhs_row _ _
      | ⟨1, _⟩ => exact (dot_S512x4096_S4096x1024_S512x1024_1_0_0_1_n_n.lhsIdx_val_of_single rfl (ix2 p q) _).trans hk)
  have er : dot_S512x4096_S4096x1024_S512x1024_1_0_0_1_n_n.rhsIdx (ix2 p q) ((contrEquiv1 dot_S512x4096_S4096x1024_S512x1024_1_0_0_1_n_n 4096 rfl rfl).symm k) = ix2 k q :=
    funext fun a => Fin.ext (by
      match a with
      | ⟨0, _⟩ => exact (dot_S512x4096_S4096x1024_S512x1024_1_0_0_1_n_n.rhsIdx_val_of_single rfl (ix2 p q) _).trans hk
      | ⟨1, _⟩ => exact rhs_col _ _)
  rw [el, er]

/-- What one step stores, at entry (p, q) of its block: row p of the activations' block against column q of the
    weights, plus bias entry q. -/
theorem pay_at (x : Vec Ideal S512x4096 .f32) (w : Vec Ideal S4096x1024 .bf16) (b : Vec Ideal S1x1024 .f32)
    (p : Fin 512) (q : Fin 1024) :
    k0_pay1 (F := Ideal) x w b (ix2 p q) = (∑ k : Fin 4096, x (ix2 p k) * w (ix2 k q)) + b (ix2 (0 : Fin 1) q) := by
  unfold k0_pay1
  rw [shapeCast_self, shapeCast_self]
  show matmul dot_S512x4096_S4096x1024_S512x1024_1_0_0_1_n_n none (truncf .bf16 x bitsLt_bf16_f32) w (constant S512x1024 .f32 0x00000000#32) (ix2 p q)
      * Ideal.ofBits .f32 0x3F800000#32 + broadcastTo S512x1024 b broadcasts_S1x1024_S512x1024 (ix2 p q) = _
  rw [matmul_at, broadcastTo_1b_ab_apply, Ideal.ofBits_one_f32, mul_one]
  rfl

end Cert.KernelIdeal.Body

end
-- ==== Proof.KernelDense.lean ====
/-
  From the grid steps to the whole result array. The grid has 32 steps; step t holds rows 512·t … 512·t + 511 of the
  activations, the whole sign-binarized weight matrix and bias row (both prepared once before the steps run), and writes
  rows 512·t … 512·t + 511 of the result. The 32 row blocks tile the 16384 rows, so after the last step the result array is
  the sign-binarized dense layer of the three arguments, entry by entry.
-/
import proofs.«110408_j86234353369428_2_alg».proof.Proof.Gen.KernelIdeal.Value
import proofs.«110408_j86234353369428_2_alg».proof.Proof.Dense
import proofs.«110408_j86234353369428_2_alg».proof.Proof.BodyDense
import Idealize.ShloMosaic.Lib.StableHlo.Run

noncomputable section

namespace Cert.KernelIdeal.Dense

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The sign-binarized dense layer of the three argument arrays as launched. -/
abbrev result (c : Dev nD) : S16384x1024.Idx → EReal :=
  Cert.SignDense.dense (m ((c : Thread nD τ).loc main_arg0)) (m ((c : Thread nD τ).loc main_arg1)) (m ((c : Thread nD τ).loc main_arg2))

/-- Where each window's block sits at step t: the activations' and the result's blocks are row block t, the weights' and
    the bias's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Before the steps run, the weights' window holds the signs of the weight argument. -/
theorem weights_array (c : Dev nD) :
    (V m c main_v1 : S4096x1024.Idx → EReal)
      = truncf .bf16 (Host.sign (F := Ideal) (m ((c : Thread nD τ).loc main_arg1))) bitsLt_bf16_f32 := by
  dsimp only [V, hostOps0]
  after_results

/-- Before the steps run, the bias's window holds the signs of the bias argument times the constant one. -/
theorem bias_array (c : Dev nD) :
    (V m c main_v4 : S1x1024.Idx → EReal)
      = mulf (Host.sign (F := Ideal) (m ((c : Thread nD τ).loc main_arg2)))
          (broadcastInDim S1x1024 ![] bcast_S_S1x1024 (constant (F := Ideal) S_ .f32 0x3F800000#32)) := by
  dsimp only [V, hostOps0]
  after_results

/-- Entry (p, k) of the activations' block at step t is the activation at row 512·t + p, column k. -/
theorem x_block (c : Dev nD) (t : Fin cfg0.N) (p : Fin 512) (k : Fin 4096) (r : Fin 16384) (hr : r.val = t.val * 512 + p.val) :
    (iblk m c 0 t : Vec Ideal S512x4096 .f32) (ix2 p k) = (m ((c : Thread nD τ).loc main_arg0) : S16384x4096.Idx → EReal) (ix2 r k) := by
  obtain ⟨e0, e1, -⟩ := idx_facts t
  unfold iblk
  rw [View.read_apply]
  show V m c main_arg0 _ = _
  rw [V_main_arg0]
  refine congrArg (m ((c : Thread nD τ).loc main_arg0) : S16384x4096.Idx → EReal) ?_
  funext a
  apply Fin.ext
  match a with
  | ⟨0, _⟩ => show win0_0.index t (0 : Fin 2) * 512 + 1 * p.val = r.val; omega
  | ⟨1, _⟩ => show win0_0.index t (1 : Fin 2) * 4096 + 1 * k.val = k.val; omega

/-- Entry (k, q) of the weights' block at any step is the sign of the weight at (k, q). -/
theorem w_block (c : Dev nD) (t : Fin cfg0.N) (k : Fin 4096) (q : Fin 1024) :
    (iblk m c 1 t : Vec Ideal S4096x1024 .bf16) (ix2 k q)
      = Ideal.sign ((m ((c : Thread nD τ).loc main_arg1) : S4096x1024.Idx → EReal) (ix2 k q)) := by
  obtain ⟨-, -, e2, e3, -⟩ := idx_facts t
  unfold iblk
  rw [View.read_apply]
  show (V m c main_v1 : S4096x1024.Idx → EReal) _ = _
  rw [weights_array]
  show Ideal.sign ((m ((c : Thread nD τ).loc main_arg1) : S4096x1024.Idx → EReal) _) = _
  refine congrArg (fun i => Ideal.sign ((m ((c : Thread nD τ).loc main_arg1) : S4096x1024.Idx → EReal) i)) ?_
  funext a
  apply Fin.ext
  match a with
  | ⟨0, _⟩ => show win0_1.index t (0 : Fin 2) * 4096 + 1 * k.val = k.val; omega
  | ⟨1, _⟩ => show win0_1.index t (1 : Fin 2) * 1024 + 1 * q.val = q.val; omega

/-- Entry (0, q) of the bias's block at any step is the sign of bias entry q. -/
theorem b_block (c : Dev nD) (t : Fin cfg0.N) (q : Fin 1024) :
    (iblk m c 2 t : Vec Ideal S1x1024 .f32) (ix2 (0 : Fin 1) q)
      = Ideal.sign ((m ((c : Thread nD τ).loc main_arg2) : S1x1024.Idx → EReal) (ix2 (0 : Fin 1) q)) := by
  obtain ⟨-, -, -, -, e4, e5, -⟩ := idx_facts t
  unfold iblk
  rw [View.read_apply]
  show (V m c main_v4 : S1x1024.Idx → EReal) _ = _
  rw [bias_array]
  have hi : (((cfg0.win 2).blk t).view.emb (ix2 (0 : Fin 1) q) : S1x1024.Idx) = ix2 (0 : Fin 1) q := by
    funext a
    apply Fin.ext
    match a with
    | ⟨0, _⟩ => show win0_2.index t (0 : Fin 2) * 1 + 1 * 0 = 0; omega
    | ⟨1, _⟩ => show win0_2.index t (1 : Fin 2) * 1024 + 1 * q.val = q.val; omega
  rw [hi]
  show Ideal.sign _ * Ideal.ofBits .f32 0x3F800000#32 = _
  rw [Ideal.ofBits_one_f32, mul_one]

/-- What step t writes back is rows 512·t … 512·t + 511 of the dense layer. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S512x4096) hz, View.ld_unit_zero (S := S4096x1024) hz, View.ld_unit_zero (S := S1x1024) hz]
  show (k0_pay1 (iblk m c 0 t) (iblk m c 1 t) (iblk m c 2 t) : S512x1024.Idx → EReal)
    = fun y : S512x1024.Idx => result m c (((cfg0.win 3).blk t).view.emb y)
  funext y
  obtain ⟨p, q, rfl⟩ : ∃ (p : Fin 512) (q : Fin 1024), y = ix2 p q := ⟨y 0, y 1, eq_ix2 y⟩
  obtain ⟨-, -, -, -, -, -, e6, e7⟩ := idx_facts t
  have hN : t.val < 32 := lt_of_lt_of_eq t.isLt N_0
  have hp : p.val < 512 := p.isLt
  refine (Cert.KernelIdeal.Body.pay_at (iblk m c 0 t) (iblk m c 1 t) (iblk m c 2 t) p q).trans ?_
  refine Eq.trans ?_ (Cert.SignDense.dense_at _ _ _ (((cfg0.win 3).blk t).view.emb (ix2 p q)) ⟨t.val * 512 + p.val, by omega⟩ q
    (by show win0_3.index t (0 : Fin 2) * 512 + 1 * p.val = t.val * 512 + p.val; omega)
    (by show win0_3.index t (1 : Fin 2) * 1024 + 1 * q.val = q.val; omega)).symm
  unfold Cert.SignDense.entry
  refine congrArg₂ (· + ·) (Finset.sum_congr rfl fun k _ => ?_) (b_block m c t q)
  rw [x_block m c t p k ⟨t.val * 512 + p.val, by omega⟩ rfl, w_block m c t k q]

/-- An index of the result array is in step t's block iff each coordinate is in the block's range on its axis. -/
theorem mem_blk (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5).slice (win0_3.rect t)).set ↔ _
  rw [View.set_slice_whole, Rect.mem_set_unit]
  exact Iff.rfl

/-- The 32 row blocks tile the result: row r lies in the block of step r / 512. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  have ht : (i 0).val / 512 < cfg0.N := by rw [hN]; omega
  obtain ⟨-, -, -, -, -, -, e6, e7⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e6]
    show (i 0).val / 512 * 512 ≤ (i 0).val ∧ (i 0).val < (i 0).val / 512 * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    rw [e7]
    omega

/-- After the last step the result array is the dense layer of the arguments. -/
theorem final (c : Dev nD) : (dats m 0 c).arrAt 3 cfg0.N = result m c :=
  (dats m 0 c).arrAt_eq_of_cover 3 (result m c) (fun t _ => flushed_eq m c t) cover

/-- Every fair execution of the kernel's program ends with the result array at the dense layer of the arguments, the
    arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Dense

end
-- ==== Proof.RefDense.lean ====
/-
  The reference computes the sign-binarized dense layer: it multiplies the signs of the weights and of the bias by the
  constant one (which changes nothing: x · 1 = x on the extended reals), contracts the activations with the binarized
  weights over the 4096 shared coordinates, and adds the binarized bias row to every row of the product.
-/
import proofs.«110408_j86234353369428_2_alg».proof.Proof.Gen.ReferenceIdeal.Read
import proofs.«110408_j86234353369428_2_alg».proof.Proof.Dense
import Idealize.ShloMosaic.Lib.IdealHost

noncomputable section

namespace Cert.ReferenceIdeal.RefValue

open Cert.ReferenceIdeal Cert.ReferenceIdeal.Read Idealize.ShloMosaic Idealize.ShloMosaic.ValueIdx

/-- The left factor of the k-th product at output (r, q) is the activation at (r, k). -/
theorem lidx_eq (r : Fin 16384) (q : Fin 1024) (k : Fin 4096) : lidx_main_v6 (ix2 r q) k = ix2 r k :=
  funext fun a => by match a with | ⟨0, _⟩ => rfl | ⟨1, _⟩ => rfl

/-- The right factor of the k-th product at output (r, q) is the binarized weight at (k, q). -/
theorem ridx_eq (r : Fin 16384) (q : Fin 1024) (k : Fin 4096) : ridx_main_v6 (ix2 r q) k = ix2 k q :=
  funext fun a => by match a with | ⟨0, _⟩ => rfl | ⟨1, _⟩ => rfl

/-- Every row of the result receives the one bias row: output (r, q) reads bias entry (0, q). -/
theorem bidx_eq (r : Fin 16384) (q : Fin 1024) : idx_main_v7 (ix2 r q) = ix2 (0 : Fin 1) q :=
  funext fun a => by match a with | ⟨0, _⟩ => rfl | ⟨1, _⟩ => rfl

/-- The reference's result is the sign-binarized dense layer of its three arguments. -/
theorem ref_eq_dense (x0 : (⟨S16384x4096, .f32⟩ : BufTy).Contents (Elt Ideal)) (x1 : (⟨S4096x1024, .f32⟩ : BufTy).Contents (Elt Ideal))
    (x2 : (⟨S1x1024, .f32⟩ : BufTy).Contents (Elt Ideal)) :
    val_main_v8 (F := Ideal) x0 x1 x2 = Cert.SignDense.dense x0 x1 x2 := by
  funext i
  obtain ⟨r, q, rfl⟩ : ∃ (r : Fin 16384) (q : Fin 1024), i = ix2 r q := ⟨i 0, i 1, eq_ix2 i⟩
  rw [val_main_v8_apply, val_main_v6_apply, val_main_v7_apply, val_main_v5_apply, val_main_v3_apply, val_main_v4_apply,
    val_main_cst_0_apply]
  simp only [lidx_eq, ridx_eq, bidx_eq, val_main_v2_apply, val_main_v0_apply, val_main_v1_apply, val_main_cst_apply,
    Ideal.mulf_def, Ideal.addf_def, Ideal.hostUnary_sign_def, Ideal.ofBits_def, Ideal.ofBits_one_f32, mul_one]
  rfl

end Cert.ReferenceIdeal.RefValue

end
-- ==== Proof.lean ====
/-
  A dense layer with sign-binarized parameters: the tiled kernel against the plain reference.

  Both programs compute, for activations X (16384 × 4096), weights W (4096 × 1024) and a bias row b (1024 entries),

      Z(r, q) = ( Σ_k  X(r, k) · sign W(k, q) )  +  sign b(q).

  The kernel's program first binarizes W and b (it also rounds sign W to a narrower format, and multiplies sign b by
  one), then walks 32 grid steps; step t multiplies rows 512·t … 512·t + 511 of X with the whole binarized weight matrix
  into a zero accumulator, multiplies by one, adds the bias row and writes rows 512·t … 512·t + 511 of Z. The reference
  multiplies sign W and sign b by one, forms the whole product at once and adds the bias row to every row.

  On the extended reals a change of format is the identity and x · 1 = x, and the reference's product and each step's
  product are the same sums of the same products; so each program's result is the function above, entry by entry. The
  32 row blocks tile the 16384 rows, which gives the kernel's whole array. No law used here needs the inputs to be
  finite (only x · 1 = x and the definitions of the sums), so the precondition is never opened.

  The modules: Dense (the function Z), RefDense (the reference is Z), BodyDense (one step, entry by entry),
  KernelDense (the steps' blocks tile Z), and the five claims below.
-/
import proofs.«110408_j86234353369428_2_alg».proof.Defs
import proofs.«110408_j86234353369428_2_alg».proof.Proof.Gen.Kernel
import proofs.«110408_j86234353369428_2_alg».proof.Proof.Gen.Kernel.Skeleton
import proofs.«110408_j86234353369428_2_alg».proof.Proof.Gen.Kernel.Launch
import proofs.«110408_j86234353369428_2_alg».proof.Proof.Gen.Kernel.Points
import proofs.«110408_j86234353369428_2_alg».proof.Proof.Gen.Kernel.Frame
import proofs.«110408_j86234353369428_2_alg».proof.Proof.Gen.KernelIdeal
import proofs.«110408_j86234353369428_2_alg».proof.Proof.Gen.KernelIdeal.Skeleton
import proofs.«110408_j86234353369428_2_alg».proof.Proof.Gen.KernelIdeal.Launch
import proofs.«110408_j86234353369428_2_alg».proof.Proof.Gen.KernelIdeal.Points
import proofs.«110408_j86234353369428_2_alg».proof.Proof.Gen.KernelIdeal.Frame
import proofs.«110408_j86234353369428_2_alg».proof.Proof.Gen.ReferenceIdeal
import proofs.«110408_j86234353369428_2_alg».proof.Proof.Gen.Pre_finite_inputs
import proofs.«110408_j86234353369428_2_alg».proof.Proof.Gen.KernelIdeal.Value
import proofs.«110408_j86234353369428_2_alg».proof.Proof.Gen.ReferenceIdeal.Run
import proofs.«110408_j86234353369428_2_alg».proof.Proof.Gen.ReferenceIdeal.Read
import proofs.«110408_j86234353369428_2_alg».proof.Proof.KernelDense
import proofs.«110408_j86234353369428_2_alg».proof.Proof.RefDense
import Idealize.ShloMosaic.Adequacy
import Idealize.ShloMosaic.Init

noncomputable section

namespace Cert.Proof

open Idealize.ShloMosaic Idealize.ShloMosaic.TcCoe Idealize.SL.Sem

/-- The kernel's program, word by word: it runs to the end without a fault and leaves its arguments as they were. -/
theorem frame_kernel : Cert.frame_Kernel := fun m ρ _ => Cert.Kernel.Gen.frame m ρ

/-- The same of the kernel's program read on the extended reals. -/
theorem frame_kernel_ideal : Cert.frame_KernelIdeal := fun m ρ _ => Cert.KernelIdeal.Gen.frame m ρ

/-- The reference runs to the end and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the reading on the extended reals, so there is nothing to preserve. -/
theorem preserves : Cert.preserves_Kernel_KernelIdeal := trivial

/-- From memories that agree on the three arguments, the kernel's result array and the reference's both end at the
    sign-binarized dense layer of those arguments: equal, entry by entry. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_dense, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
